-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384 : Shape := ⟨1, ![16384]⟩
abbrev S100000x256 : Shape := ⟨2, ![100000, 256]⟩
abbrev S1 : Shape := ⟨1, ![1]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S16384x256 .f32) (main_arg1 : IVec S16384 32) (main_arg2 : FVec F S100000x256 .f32) (main_arg3 : FVec F S1 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S100000x256 .f32 := Host.absf main_arg2
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S16384x256 : Shape := ⟨2, ![16384, 256]⟩
abbrev S16384 : Shape := ⟨1, ![16384]⟩
abbrev S100000x256 : Shape := ⟨2, ![100000, 256]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S2048x256 : Shape := ⟨2, ![2048, 256]⟩
abbrev S1x2048x256 : Shape := ⟨3, ![1, 2048, 256]⟩
abbrev S1x1x1 : Shape := ⟨3, ![1, 1, 1]⟩
abbrev S5000x256 : Shape := ⟨2, ![5000, 256]⟩

abbrev nBuf : Space → Nat
  | .hbm => 33
  | .vmem => 14
  | .smem => 0
  | _ => 0

abbrev bufTy : (tb : Table) → Fin (tcTables nBuf tb) → BufTy
  | .hbm, ⟨0, _⟩ => ⟨S16384x256, .f32⟩
  | .hbm, ⟨1, _⟩ => ⟨S16384, .i32⟩
  | .hbm, ⟨2, _⟩ => ⟨S100000x256, .f32⟩
  | .hbm, ⟨3, _⟩ => ⟨S1, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S16384x256, .f32⟩
  | .hbm, ⟨13, _⟩ => ⟨S16384x256, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S100000x256, .f32⟩
  | .hbm, ⟨22, _⟩ => ⟨S_, .i32⟩
  | .hbm, ⟨23, _⟩ => ⟨S16384, .i32⟩
  | .hbm, ⟨24, _⟩ => ⟨S16384, .i1⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S16384x1, .i32⟩
  | .hbm, ⟨30, _⟩ => ⟨S100000x256, .f32⟩
  | .hbm, ⟨31, _⟩ => ⟨S1x1, .f32⟩
  | .hbm, ⟨32, _⟩ => ⟨S100000x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1x1, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S1x1, .f32⟩
  | .local _ .vmem, ⟨12, _⟩ => ⟨S5000x256, .f32⟩
  | .local _ .vmem, ⟨13, _⟩ => ⟨S5000x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  inb_S1x1_S1x1_0_0 : ∀ a, (![0, 0] : Fin 2 → Nat) a + S1x1.size a ≤ S1x1.size a
  h_S1x1 : 0 < S1x1.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S1x1_S1x1 : S1x1.ShapeCasts S1x1
  shapeCasts_S2048x256_S1x2048x256 : S2048x256.ShapeCasts S1x2048x256
  reduces_S1x2048x256_S1 : S1x2048x256.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  bcast_S_S100000x256 : S_.BroadcastsInDim S100000x256 (![] : Fin 0 → Fin S100000x256.rank)
  shapeCasts_S1_S1x1 : S1.ShapeCasts S1x1
  inpos_S1x1_p0_0 : ∀ a, (![0, 0] : Fin 2 → Nat) a < S1x1.size a
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  gather_S100000x256_S16384x1_S16384x256_1_0_n_n_0_1_1256_wf : GatherDims.WF S100000x256 S16384x1 S16384x256 [1] [0] [] [0] [] 1 ![1, 256]
  scatter_S100000x256_S16384x1_S16384x256_1_0_0_1_wf : ScatterDims.WF S100000x256 S16384x1 S16384x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .f32 = 32 ∨ (Rect.block (s := S16384x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S100000x256.size a
  hwx1_1 : ∀ i : grid1.Coords, EltTy.bits .f32 = 32 ∨ (Rect.block (s := S100000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S100000x256.size a
  hwx1_3 : ∀ i : grid1.Coords, EltTy.bits .f32 = 32 ∨ (Rect.block (s := S100000x256) S5000x256.size (cc1_transform_3 i) (hinb1_3 i)).WholeWords (EltTy.packing .f32)

variable [Facts₀]

def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def scatter_S100000x256_S16384x1_S16384x256_1_0_0_1 : ScatterDims S100000x256 S16384x1 S16384x256 where
  updateWindowDims := [1]
  insertedWindowDims := [0]
  scatterDimsToOperandDims := [0]
  indexVectorDim := 1
  wf := scatter_S100000x256_S16384x1_S16384x256_1_0_0_1_wf

abbrev win0_0 : Pipeline.Window sig grid0 :=
  Pipeline.Window.ofSpec (Memref.whole main_v6) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S2048x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x256 : Shape := ⟨2, ![16384, 256]⟩
abbrev S16384 : Shape := ⟨1, ![16384]⟩
abbrev S100000x256 : Shape := ⟨2, ![100000, 256]⟩
abbrev S1 : Shape := ⟨1, ![1]⟩
abbrev S_ : Shape := ⟨0, ![]⟩
abbrev S16384x1 : Shape := ⟨2, ![16384, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384, .i32⟩
  | .hbm, ⟨2, _⟩ => ⟨S100000x256, .f32⟩
  | .hbm, ⟨3, _⟩ => ⟨S1, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S16384x256, .f32⟩
  | .hbm, ⟨13, _⟩ => ⟨S16384x256, .f32⟩
  | .hbm, ⟨14, _⟩ => ⟨S16384x256, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S100000x256, .f32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S100000x256, .f32⟩
  | .hbm, ⟨32, _⟩ => ⟨S1x1, .f32⟩
  | .hbm, ⟨33, _⟩ => ⟨S100000x256, .f32⟩
  | .hbm, ⟨34, _⟩ => ⟨S100000x256, .f32⟩
  | .hbm, ⟨35, _⟩ => ⟨S100000x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x256_S_d0_1 : S16384x256.ReducesTo [0, 1] S_
  h_S_ : 0 < S_.numel
  bcast_S_S100000x256 : S_.BroadcastsInDim S100000x256 (![] : Fin 0 → Fin S100000x256.rank)
  bcast_S1_S1x1_1 : S1.BroadcastsInDim S1x1 (![1] : Fin 1 → Fin S1x1.rank)
  bcast_S1x1_S100000x256_0_1 : S1x1.BroadcastsInDim S100000x256 (![0, 1] : Fin 2 → Fin S100000x256.rank)
  gather_S100000x256_S16384x1_S16384x256_1_0_n_n_0_1_1256_wf : GatherDims.WF S100000x256 S16384x1 S16384x256 [1] [0] [] [0] [] 1 ![1, 256]
  scatter_S100000x256_S16384x1_S16384x256_1_0_0_1_wf : ScatterDims.WF S100000x256 S16384x1 S16384x256 [1] [0] [0] 1

variable [Facts₀]

def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def scatter_S100000x256_S16384x1_S16384x256_1_0_0_1 : ScatterDims S100000x256 S16384x1 S16384x256 where
  updateWindowDims := [1]
  insertedWindowDims := [0]
  scatterDimsToOperandDims := [0]
  indexVectorDim := 1
  wf := scatter_S100000x256_S16384x1_S16384x256_1_0_0_1_wf

class Facts : Prop extends Facts₀ where

variable [Facts]
-- ==== Proof.Whole.lean ====
/-
  The whole program's run, with its two results named.

  The program is four stretches in a row: host operations (the label normalisation and the gather of the labelled
  centre rows), the first kernel (differences and the running total of their squares), host operations (the two
  divisions of the total, the scatter-add of the differences, the learning rate as a 1 × 1 array), the second kernel (the
  update of the table). What each buffer holds at each boundary is a fold through these stretches from the launch
  memory; the last boundary's contents are what every terminating execution ends with. Here that is stated for the
  two result buffers and the four arguments at once; the later modules read the fold back, stretch by stretch.
-/
import proofs.«158127_j50319836840009_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the two result buffers at the last boundary's
    contents and the four arguments as launched. -/
theorem run : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_v20) = W4 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       h c _ (mem_uc main_v20 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Whole

end
-- ==== Proof.Diff.lean ====
/-
  The first kernel: differences, and the running total of their squares.

  The kernel walks eight blocks of 2048 rows. At each block it stores `d = c − x` (the block of gathered centre rows
  minus the block of inputs) into its first output, and adds the total of `d · d` over the block into a 1 × 1
  accumulator — its second output — which it first sets to zero at the first block and which is written back only
  after the last. So the first output array ends as the difference of the two whole arrays, entry by entry, and the
  second as the total accumulated block after block: from zero, the first block's total, then each next one's.

  Here: what each of the two control cases leaves in the two outputs' buffers (the payloads of their stores), the
  accumulator after every block by induction on the block, and from these the two arrays after the kernel, for any
  contents `V` the kernel is entered with.
-/
import proofs.«158127_j50319836840009_1_alg».proof.Proof.Gen.KernelIdeal.Frame
import Idealize.ShloMosaic.Lib.Pipeline.Value
import Idealize.ShloMosaic.Lib.Tactic

set_option maxRecDepth 16384

noncomputable section

namespace Cert.KernelIdeal.Diff

open Cert.KernelIdeal Cert.KernelIdeal.Gen
open Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-! ## What each case leaves in the two outputs' buffers -/

/-- Past the first block: the first output's buffer holds the difference of the two input blocks. -/
theorem later_diff (c : Dev nD) (i : grid0.Coords) (a1 : Memref sig .tc .vmem S2048x256 .f32) (h1 : a1.IsWhole)
    (a2 : Memref sig .tc .vmem S2048x256 .f32) (h2 : a2.IsWhole) (a3 : Memref sig .tc .vmem S2048x256 .f32) (h3 : a3.IsWhole)
    (a4 : Memref sig .tc .vmem S1x1 .f32) (h4 : a4.IsWhole) (hc : ¬cond0_0 i)
    (x0 x1 : Vec F S2048x256 .f32) (xo : Vec F S1x1 .f32) :
    out0_B_2 c i a1 h1 a2 h2 a3 h3 a4 h4 hc x0 x1 xo = k0_pay2 x0 x1 := by
  unfold out0_B_2
  rw [View.read_writes_eq_canon _ _ _ (cover0_B_2 c i a1 h1 a2 h2 a3 h3 a4 h4 hc x0 x1 xo)]
  unfold kernelRun0_B
  dsimp only
  rw [View.canon_unit_zero hz]
  simp only [View.readAt_eq_ld, h1.read_unread, h2.read_unread, View.ld_unit_zero (S := S2048x256) hz]

/-- Past the first block: the accumulator, holding `xo`, is left at `xo` plus the block's total of squares. -/
theorem later_total (c : Dev nD) (i : grid0.Coords) (a1 : Memref sig .tc .vmem S2048x256 .f32) (h1 : a1.IsWhole)
    (a2 : Memref sig .tc .vmem S2048x256 .f32) (h2 : a2.IsWhole) (a3 : Memref sig .tc .vmem S2048x256 .f32) (h3 : a3.IsWhole)
    (a4 : Memref sig .tc .vmem S1x1 .f32) (h4 : a4.IsWhole) (hc : ¬cond0_0 i)
    (x0 x1 : Vec F S2048x256 .f32) (xo : Vec F S1x1 .f32) :
    out0_B_3 c i a1 h1 a2 h2 a3 h3 a4 h4 hc x0 x1 xo = k0_pay3 x0 x1 xo := by
  unfold out0_B_3
  rw [View.read_writes_eq_canon _ _ _ (cover0_B_3 c i a1 h1 a2 h2 a3 h3 a4 h4 hc x0 x1 xo)]
  unfold kernelRun0_B
  dsimp only
  rw [View.canon_unit_zero hz]
  simp only [View.readAt_eq_ld, h1.read_unread, h2.read_unread, h4.read_unread, View.ld_unit_zero (S := S2048x256) hz,
    View.ld_unit_zero (S := S1x1) hz]

/-- At the first block: the first output's buffer holds the difference of the two input blocks. -/
theorem first_diff (c : Dev nD) (i : grid0.Coords) (a1 : Memref sig .tc .vmem S2048x256 .f32) (h1 : a1.IsWhole)
    (a2 : Memref sig .tc .vmem S2048x256 .f32) (h2 : a2.IsWhole) (a3 : Memref sig .tc .vmem S2048x256 .f32) (h3 : a3.IsWhole)
    (a4 : Memref sig .tc .vmem S1x1 .f32) (h4 : a4.IsWhole) (hc : cond0_0 i)
    (x0 x1 : Vec F S2048x256 .f32) :
    out0_A_2 c i a1 h1 a2 h2 a3 h3 a4 h4 hc x0 x1 = k0_pay2 x0 x1 := by
  unfold out0_A_2
  rw [View.read_writes_eq_canon _ _ _ (cover0_A_2 c i a1 h1 a2 h2 a3 h3 a4 h4 hc x0 x1)]
  unfold kernelRun0_A
  dsimp only
  rw [View.canon_unit_zero hz]
  simp only [View.readAt_eq_ld, h1.read_unread, h2.read_unread, View.ld_unit_zero (S := S2048x256) hz]

/-- At the first block: the accumulator is set to zero, read back, and left at zero plus the block's total. -/
theorem first_total (c : Dev nD) (i : grid0.Coords) (a1 : Memref sig .tc .vmem S2048x256 .f32) (h1 : a1.IsWhole)
    (a2 : Memref sig .tc .vmem S2048x256 .f32) (h2 : a2.IsWhole) (a3 : Memref sig .tc .vmem S2048x256 .f32) (h3 : a3.IsWhole)
    (a4 : Memref sig .tc .vmem S1x1 .f32) (h4 : a4.IsWhole) (hc : cond0_0 i)
    (x0 x1 : Vec F S2048x256 .f32) :
    out0_A_3 c i a1 h1 a2 h2 a3 h3 a4 h4 hc x0 x1 = k0_pay3 x0 x1 k0_pay1 := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S2048x256) hz,
    View.ld_unit_zero (S := S1x1) hz]

/-! ## The accumulator after every block -/

section Entered

variable (V : (c : Dev nD) → (b : Ref sig .tc) → Buf (Elt F) ((c : Thread nD τ).loc b))

/-- The accumulator after block `n`: the first block's step from the zero it stores, then each next block's step from
    what the block before left. -/
def totals (c : Dev nD) : (n : ℕ) → n < cfg0.N → Vec F S1x1 .f32
  | 0, h => k0_pay3 (iblk0 V c 0 ⟨0, h⟩) (iblk0 V c 1 ⟨0, h⟩) k0_pay1
  | n + 1, h => k0_pay3 (iblk0 V c 0 ⟨n + 1, h⟩) (iblk0 V c 1 ⟨n + 1, h⟩) (totals c n (Nat.lt_of_succ_lt h))

/-- After block `n` the first output's buffer holds that block's difference and the accumulator the running total: by
    induction on the block. -/
theorem outsAt_eq (c : Dev nD) : ∀ (n : ℕ) (h : n < cfg0.N),
    outsAt0 V c n h = (k0_pay2 (iblk0 V c 0 ⟨n, h⟩) (iblk0 V c 1 ⟨n, h⟩), totals V c n h)
  | 0, h => by
    rw [outsAt0_A V c ⟨0, h⟩ rfl, first_diff, first_total]
    rfl
  | n + 1, h => by
    have hN : cfg0.N = 8 := N_0
    have hB : ¬(⟨n + 1, h⟩ : Fin cfg0.N).val % 8 = 0 := by dsimp only; omega
    rw [outsAt0_B V c ⟨n + 1, h⟩ hB, later_diff, later_total]
    show (_, k0_pay3 _ _ (outsAt0 V c n _).2) = (_, k0_pay3 _ _ (totals V c n _))
    rw [outsAt_eq c n]

/-! ## The two arrays after the kernel -/

/-- The difference of two blocks, entry by entry. -/
theorem diff_apply (x0 x1 : Vec F S2048x256 .f32) : k0_pay2 x0 x1 = fun j => FloatOps.subf (x0 j) (x1 j) := by
  unfold k0_pay2
  rw [shapeCast_self]
  rfl

/-- The index maps, decided once over the eight blocks: the two inputs and the first output all move with the block
    number along the rows and stay at zero along the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The difference of the gathered centre rows and the inputs, over the whole arrays the kernel is entered with. -/
abbrev diffAll (c : Dev nD) : S16384x256.Idx → Elt F .f32 :=
  fun i => FloatOps.subf (V c main_v6 i) (V c main_arg0 i)

/-- What block `t` writes back to the first output is block `t` of the whole-array difference. -/
theorem flushed_diff (c : Dev nD) (t : Fin cfg0.N) :
    (dat0 V c).flushed 2 t = ((cfg0.win 2).blk t).view.read (Elt F) (diffAll V c) := by
  show (cfg0.win 2).cut (grid0.coords t) ((dat0 V c).after 2 t) = _
  rw [after0_2, outsAt_eq, diff_apply]
  obtain ⟨e0, e1, e2, e3, e4, e5⟩ := idx_facts t
  funext j
  show FloatOps.subf (V c main_v6 (((cfg0.win 0).blk t).view.emb j)) (V c main_arg0 (((cfg0.win 1).blk t).view.emb j))
    = FloatOps.subf (V c main_v6 (((cfg0.win 2).blk t).view.emb j)) (V c main_arg0 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 256 + 1 * (j 1).val = win0_2.index t (1 : Fin 2) * 256 + 1 * (j 1).val; omega
  have h1 : ((cfg0.win 1).blk t).view.emb j = ((cfg0.win 2).blk t).view.emb j := by
    funext a; apply Fin.ext
    match a with
    | ⟨0, _⟩ => show win0_1.index t (0 : Fin 2) * 2048 + 1 * (j 0).val = win0_2.index t (0 : Fin 2) * 2048 + 1 * (j 0).val; omega
    | ⟨1, _⟩ => show win0_1.index t (1 : Fin 2) * 256 + 1 * (j 1).val = win0_2.index t (1 : Fin 2) * 256 + 1 * (j 1).val; omega
  rw [h0, h1]

/-- An entry of the array is in block `t` of the first output iff each coordinate is in the block's range. -/
theorem mem_blk (t : Fin cfg0.N) (i : S16384x256.Idx) :
    i ∈ ((cfg0.win 2).blk t).view.set ↔ ∀ a : Fin 2, win0_2.index t a * S2048x256.size a ≤ (i a).val
      ∧ (i a).val < win0_2.index t a * S2048x256.size a + S2048x256.size a := by
  show i ∈ ((View.whole main_v7_0).slice (win0_2.rect t)).set ↔ _
  rw [View.set_slice_whole, Rect.mem_set_unit]
  exact Iff.rfl

/-- The first output array after the kernel: the whole-array difference (row `r` lies in block `r / 2048`). -/
theorem final_diff (c : Dev nD) : (dat0 V c).arrAt 2 cfg0.N = diffAll V c :=
  (dat0 V c).arrAt_eq_of_cover 2 (diffAll V c) (fun t _ => flushed_diff V c t) fun i => by
    have hN : cfg0.N = 8 := N_0
    have hi0 : (i 0).val < 16384 := (i 0).isLt
    have hi1 : (i 1).val < 256 := (i 1).isLt
    refine ⟨⟨(i 0).val / 2048, by rw [hN]; omega⟩, flush0_2 _, ?_⟩
    rw [mem_blk]
    obtain ⟨-, -, -, -, e4, e5⟩ := idx_facts ⟨(i 0).val / 2048, by rw [hN]; omega⟩
    intro a
    match a with
    | ⟨0, _⟩ =>
      show win0_2.index _ (0 : Fin 2) * 2048 ≤ (i 0).val ∧ (i 0).val < win0_2.index _ (0 : Fin 2) * 2048 + 2048
      rw [e4]; dsimp only; omega
    | ⟨1, _⟩ =>
      show win0_2.index _ (1 : Fin 2) * 256 ≤ (i 1).val ∧ (i 1).val < win0_2.index _ (1 : Fin 2) * 256 + 256
      rw [e5]; omega

/-- The accumulator after the last block, as contents of the 1 × 1 result array (its one block is the array). -/
abbrev total (c : Dev nD) : Buf (Elt F) ((c : Thread nD τ).loc main_v7_1) :=
  totals V c 7 (by rw [show cfg0.N = 8 from N_0]; decide)

/-- The one write-back of the accumulator, after the last block, writes that. -/
theorem flushed_total (c : Dev nD) (t : Fin cfg0.N) (hf : (cfg0.win 3).flush t = true) :
    (dat0 V c).flushed 3 t = ((cfg0.win 3).blk t).view.read (Elt F) (total V c) := by
  have hN : cfg0.N = 8 := N_0
  have h7 : t.val = 7 := by have := (flush0_3 t).mp hf; have := t.isLt; omega
  obtain rfl : t = t0_7 := Fin.ext h7
  show (cfg0.win 3).cut (grid0.coords t0_7) ((dat0 V c).after 3 t0_7) = _
  rw [after0_3, outsAt_eq]
  have hz' : (fun a => win0_3.index t0_7 a * main_v7_1.ty.shape.size a) = fun _ => 0 := funext fun a => by fin_cases a <;> decide
  exact (Memref.read_access_unit_zero (Elt F) main_v7_1 hz' (fun a => by rw [congrFun hz' a]; simp) (total V c)).symm

/-- So the second output array after the kernel is the accumulator after the last block. -/
theorem final_total (c : Dev nD) : (dat0 V c).arrAt 3 cfg0.N = total V c :=
  (dat0 V c).arrAt_eq_of_cover 3 (total V c) (flushed_total V c) fun i =>
    ⟨t0_7, (flush0_3 t0_7).mpr rfl, by
      show i ∈ ((View.whole main_v7_1).slice (win0_3.rect t0_7)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index t0_7 0 * win0_3.size 0 ≤ (i 0 : Nat) ∧ (i 0 : Nat) < win0_3.index t0_7 0 * win0_3.size 0 + win0_3.xsize (grid0.coords t0_7) 0
        rw [show win0_3.index t0_7 0 * win0_3.size 0 = 0 from by decide +kernel, show win0_3.xsize (grid0.coords t0_7) 0 = 1 from by decide +kernel]; omega
      | ⟨1, _⟩ =>
        show win0_3.index t0_7 1 * win0_3.size 1 ≤ (i 1 : Nat) ∧ (i 1 : Nat) < win0_3.index t0_7 1 * win0_3.size 1 + win0_3.xsize (grid0.coords t0_7) 1
        rw [show win0_3.index t0_7 1 * win0_3.size 1 = 0 from by decide +kernel, show win0_3.xsize (grid0.coords t0_7) 1 = 1 from by decide +kernel]; omega⟩

end Entered

end Cert.KernelIdeal.Diff

end
-- ==== Proof.Update.lean ====
/- The second region's output array after its grid, index by index. Each of the 20 grid
   points writes rows 5000 t … 5000 t + 4999 of the table; what it writes there is the table's entry minus the rate
   times the gradient's entry, the rate read at the one index of its 1 × 1 array. The 20 row blocks fill the table,
   so the table ends holding that expression at every index. -/
import proofs.«158127_j50319836840009_1_alg».proof.Proof.Gen.KernelIdeal.Frame
import Idealize.ShloMosaic.Lib.Pipeline.Value
import Idealize.ShloMosaic.Lib.ValueIdx

set_option maxRecDepth 16384

noncomputable section

namespace Cert.KernelIdeal.Update

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The zero offsets of a whole-block access, as a constant function. -/
theorem hz : (![0, 0] : Fin 2 → Nat) = fun _ => 0 := funext fun a => by fin_cases a <;> rfl

/-- The updated table, index by index: the entry minus the rate times the gradient's entry. -/
abbrev updated (a g : S100000x256.Idx → Elt F .f32) (l : S1x1.Idx → Elt F .f32) : S100000x256.Idx → Elt F .f32 :=
  fun i => FloatOps.subf (a i) (FloatOps.mulf (l (ValueIdx.ix2 0 0)) (g i))

/-- Extracting position (0, 0) of a 1 × 1 vector reads it at its one index. -/
theorem extract_one (x : Vec F S1x1 .f32) (h : ∀ a, (![0, 0] : Fin 2 → Nat) a < S1x1.size a) :
    extractAt ![0, 0] x h = x (ValueIdx.ix2 0 0) :=
  congrArg x (funext fun a => by match a with | ⟨0, _⟩ => rfl | ⟨1, _⟩ => rfl)

/-- The body's payload at an index of the block: the first block's entry minus the rate times the second's. -/
theorem pay_eq (x0 x1 : Vec F S5000x256 .f32) (x2 : Vec F S1x1 .f32) :
    k1_pay1 x2 x0 x1 = fun j => FloatOps.subf (x0 j) (FloatOps.mulf (x2 (ValueIdx.ix2 0 0)) (x1 j)) := by
  unfold k1_pay1
  simp only [shapeCast_self]
  rw [extract_one x2]
  rfl

/-- The index maps over the 20 points: both inputs' row blocks move with the output's, the rate's block stays at
    (0, 0), and the output's block at point t is row block t, column block 0. -/
theorem idx_facts : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = win1_3.index t (1 : Fin 2)
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the updated table. -/
theorem flushed_eq (c : Dev nD) (t : Fin cfg1.N) :
    (dat1 V c).flushed 3 t = ((cfg1.win 3).blk t).view.read (Elt F) (updated (V c main_arg2) (V c main_v18) (V c main_v19)) := by
  show (cfg1.win 3).cut (grid1.coords t) ((dat1 V c).after 3 t) = _
  rw [after1_3]
  unfold out1_3
  rw [View.canon_unit_zero hz]
  simp only [View.ld_unit_zero (S := S5000x256) hz, View.ld_unit_zero (S := S1x1) hz]
  rw [pay_eq]
  obtain ⟨e0, e1, e2, e3, e4, e5, -, -⟩ := idx_facts t
  funext j
  show FloatOps.subf (V c main_arg2 (((cfg1.win 0).blk t).view.emb j)) (FloatOps.mulf (V c main_v19 (((cfg1.win 2).blk t).view.emb (ValueIdx.ix2 0 0 : S1x1.Idx))) (V c main_v18 (((cfg1.win 1).blk t).view.emb j))) = FloatOps.subf (V c main_arg2 (((cfg1.win 3).blk t).view.emb j)) (FloatOps.mulf (V c main_v19 (ValueIdx.ix2 0 0 : S1x1.Idx)) (V c main_v18 (((cfg1.win 3).blk t).view.emb j)))
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 256 + 1 * (j 1).val = win1_3.index t (1 : Fin 2) * 256 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 256 + 1 * (j 1).val = win1_3.index t (1 : Fin 2) * 256 + 1 * (j 1).val; omega
  have h2 : ((cfg1.win 2).blk t).view.emb (ValueIdx.ix2 0 0 : S1x1.Idx) = (ValueIdx.ix2 0 0 : S1x1.Idx) := by
    funext a; apply Fin.ext
    match a with
    | ⟨0, _⟩ => show win1_2.index t (0 : Fin 2) * 1 + 1 * 0 = 0; omega
    | ⟨1, _⟩ => show win1_2.index t (1 : Fin 2) * 1 + 1 * 0 = 0; omega
  rw [h0, h1, h2]

/-- An index of the table is in point t's block iff each coordinate is in the block's range on its axis. -/
theorem mem_blk (t : Fin cfg1.N) (i : S100000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v20).slice (win1_3.rect t)).set ↔ _
  rw [View.set_slice_whole, Rect.mem_set_unit]
  exact Iff.rfl

/-- The 20 row blocks fill the table: row r is in the block of point r / 5000, which writes back. -/
theorem cover (i : S100000x256.Idx) :
    ∃ t : Fin cfg1.N, (cfg1.win 3).flush t = true ∧ i ∈ ((cfg1.win 3).blk t).view.set := by
  have hi0 : (i 0).val < 100000 := (i 0).isLt
  have hi1 : (i 1).val < 256 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, -, -, e0, e1⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 256 ≤ (i 1).val ∧ (i 1).val < win1_3.index t (1 : Fin 2) * 256 + 256; omega

/-- The table after the region: the updated table, at every index. -/
theorem final (c : Dev nD) :
    (dat1 V c).arrAt 3 cfg1.N = updated (V c main_arg2) (V c main_v18) (V c main_v19) :=
  (dat1 V c).arrAt_eq_of_cover 3 _ (fun t _ => flushed_eq V c t) cover

end Cert.KernelIdeal.Update

end
-- ==== Proof.Fold.lean ====
/-
  What the two result buffers hold at the end, read back through the program's four stretches.

  Before the first kernel the host turns the labels into table rows (a negative label counts from the end of the table)
  and gathers the labelled rows of the table of centres. The first kernel leaves the differences and their accumulated
  total of squares. The host then halves the total and divides by the number of samples (the loss), scatter-adds the
  differences into a zero table at the same rows (the gradient), and reshapes the learning rate to 1 × 1. The second
  kernel leaves the table minus the rate times the gradient. The arguments are never written.
-/
import proofs.«158127_j50319836840009_1_alg».proof.Proof.Gen.KernelIdeal.Frame
import proofs.«158127_j50319836840009_1_alg».proof.Proof.Diff
import proofs.«158127_j50319836840009_1_alg».proof.Proof.Update
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]

/-- The labels as table rows, one column: a negative label counts from the end of the 100000-row table. -/
abbrev rows (a1 : (⟨S16384, .i32⟩ : BufTy).Contents (Elt F)) : (⟨S16384x1, .i32⟩ : BufTy).Contents (Elt F) :=
  broadcastInDim S16384x1 ![0] bcast_S16384_S16384x1_0
    (select (cmpi .slt a1 (broadcastInDim S16384 ![] bcast_S_S16384 (constantI S_ 32 0#32)))
      (addi a1 (broadcastInDim S16384 ![] bcast_S_S16384 (constantI S_ 32 100000#32))) a1)

/-- The labelled rows of the table of centres. -/
abbrev gathered (a2 : (⟨S100000x256, .f32⟩ : BufTy).Contents (Elt F)) (a1 : (⟨S16384, .i32⟩ : BufTy).Contents (Elt F)) :
    (⟨S16384x256, .f32⟩ : BufTy).Contents (Elt F) :=
  Host.gather gather_S100000x256_S16384x1_S16384x256_1_0_n_n_0_1_1256 a2 (rows a1)

/-- The gradient table: the differences added into a zero table at the labelled rows. -/
abbrev scattered (a1 : (⟨S16384, .i32⟩ : BufTy).Contents (Elt F)) (d : (⟨S16384x256, .f32⟩ : BufTy).Contents (Elt F)) :
    (⟨S100000x256, .f32⟩ : BufTy).Contents (Elt F) :=
  Host.scatterAdd scatter_S100000x256_S16384x1_S16384x256_1_0_0_1
    (broadcastInDim S100000x256 ![] bcast_S_S100000x256 (constant S_ .f32 0x00000000#32)) (rows a1) d

/-- The loss from the accumulated 1 × 1 total: halved, then divided by the number of samples. -/
abbrev lossOf (tot : (⟨S1x1, .f32⟩ : BufTy).Contents (Elt F)) : (⟨S_, .f32⟩ : BufTy).Contents (Elt F) :=
  Host.divf (Host.divf (shapeCast S_ tot shapeCasts_S1x1_S_) (constant S_ .f32 0x40000000#32)) (constant S_ .f32 0x46800000#32)

variable (m : (ℓ : Loc nD τ sig) → Buf (Elt F) ℓ) (ρ : Dev nD → PrngReg)

/-! ## Entering the first kernel -/

theorem entry_centres (c : Dev nD) :
    V1 m ρ c main_v6 = gathered (m ((c : Thread nD τ).loc main_arg2)) (m ((c : Thread nD τ).loc main_arg1)) := by
  show StableHlo.after hostOps0 (W0 m ρ c) (Proc.devRef .tc main_v6) = _
  after_results

theorem entry_inputs (c : Dev nD) : V1 m ρ c main_arg0 = m ((c : Thread nD τ).loc main_arg0) := by
  show StableHlo.after hostOps0 (W0 m ρ c) (Proc.devRef .tc main_arg0) = _
  after_results

/-- The differences, over the launch contents. -/
abbrev diffs (c : Dev nD) : (⟨S16384x256, .f32⟩ : BufTy).Contents (Elt F) :=
  fun i => FloatOps.subf (gathered (m ((c : Thread nD τ).loc main_arg2)) (m ((c : Thread nD τ).loc main_arg1)) i)
    (m ((c : Thread nD τ).loc main_arg0) i)

theorem diffAll_eq (c : Dev nD) : Diff.diffAll (V1 m ρ) c = diffs m c := by
  unfold Diff.diffAll
  rw [entry_centres, entry_inputs]

/-! ## Between the kernels -/

theorem mid_diff (c : Dev nD) : W2 m ρ c (Proc.devRef .tc main_v7_0) = diffs m c :=
  (W2_arr m ρ c 2).trans ((Diff.final_diff (V1 m ρ) c).trans (diffAll_eq m ρ c))

theorem mid_total (c : Dev nD) : W2 m ρ c (Proc.devRef .tc main_v7_1) = Diff.total (V1 m ρ) c :=
  (W2_arr m ρ c 3).trans (Diff.final_total (V1 m ρ) c)

theorem mid_labels (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)

theorem mid_table (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)

theorem mid_rate (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)

/-! ## Entering the second kernel, and the end -/

theorem entry_table (c : Dev nD) : V3 m ρ c main_arg2 = m ((c : Thread nD τ).loc main_arg2) := by
  show StableHlo.after hostOps1 (W2 m ρ c) (Proc.devRef .tc main_arg2) = _
  after_results
  exact mid_table m ρ c

theorem entry_grad (c : Dev nD) :
    V3 m ρ c main_v18 = scattered (m ((c : Thread nD τ).loc main_arg1)) (diffs m c) := by
  show StableHlo.after hostOps1 (W2 m ρ c) (Proc.devRef .tc main_v18) = _
  after_results
  rw [mid_labels, mid_diff]

theorem entry_rate (c : Dev nD) :
    V3 m ρ c main_v19 = shapeCast S1x1 (m ((c : Thread nD τ).loc main_arg3)) shapeCasts_S1_S1x1 := by
  show StableHlo.after hostOps1 (W2 m ρ c) (Proc.devRef .tc main_v19) = _
  after_results
  rw [mid_rate]
  rfl

/-- THE LOSS at the end. -/
theorem loss_eq (c : Dev nD) : W4 m ρ c (Proc.devRef .tc main_v10) = lossOf (Diff.total (V1 m ρ) c) :=
  (W4_of_ne m ρ c main_v10 (by decide)).trans (by
    show StableHlo.after hostOps1 (W2 m ρ c) (Proc.devRef .tc main_v10) = _
    after_results
    rw [mid_total]
    rfl)

/-- THE TABLE at the end. -/
theorem table_eq (c : Dev nD) :
    W4 m ρ c (Proc.devRef .tc main_v20)
      = Update.updated (m ((c : Thread nD τ).loc main_arg2)) (scattered (m ((c : Thread nD τ).loc main_arg1)) (diffs m c))
          (shapeCast S1x1 (m ((c : Thread nD τ).loc main_arg3)) shapeCasts_S1_S1x1) := by
  refine (W4_arr m ρ c 3).trans ((Update.final (V3 m ρ) c).trans ?_)
  rw [entry_table, entry_grad, entry_rate]

end Cert.KernelIdeal.Fold

end
-- ==== Proof.SumBlocks.lean ====
/-
  The total of a 16384 × 256 array, taken row block by row block.

  The rows of the array fall into eight consecutive blocks of 2048 rows: row `p` of block `t` is row `2048 t + p`.
  Every row lies in exactly one block, so the total of all entries is the total, over the eight blocks, of each
  block's own total. Only commutativity and associativity of the addition are used, so the law holds in any commutative
  monoid — in particular on the extended reals, where no finiteness is needed.

  A total accumulated block after block from zero — `0 + S 0`, then `+ S 1`, … — is the sum of the block totals.
-/
import Idealize.ShloMosaic.Lib.ValueIdx

open scoped BigOperators

namespace Cert.SumBlocks

open Idealize.ShloMosaic Idealize.ShloMosaic.ValueIdx

/-- Row `p` of block `t` is row `2048 t + p` of the array. -/
def rowOf (t : Fin 8) (p : Fin 2048) : Fin 16384 :=
  ⟨2048 * t.val + p.val, by have := t.isLt; have := p.isLt; omega⟩

theorem rowOf_val (t : Fin 8) (p : Fin 2048) : (rowOf t p).val = 2048 * t.val + p.val := rfl

/-- A row of the array is a block and a row inside it: quotient and remainder by 2048. -/
def rowsEquiv : Fin 8 × Fin 2048 ≃ Fin 16384 where
  toFun q := rowOf q.1 q.2
  invFun r := (⟨r.val / 2048, by have := r.isLt; omega⟩, ⟨r.val % 2048, by omega⟩)
  left_inv q := by
    obtain ⟨t, p⟩ := q
    have ht := t.isLt
    have hp := p.isLt
    refine Prod.ext (Fin.ext ?_) (Fin.ext ?_)
    · show (2048 * t.val + p.val) / 2048 = t.val
      omega
    · show (2048 * t.val + p.val) % 2048 = p.val
      omega
  right_inv r := by
    apply Fin.ext
    show 2048 * (r.val / 2048) + r.val % 2048 = r.val
    omega

/-- A sum over the rows is the sum over the blocks of the sums over each block's rows. -/
theorem sum_rows {M : Type*} [AddCommMonoid M] (g : Fin 16384 → M) :
    ∑ r, g r = ∑ t : Fin 8, ∑ p : Fin 2048, g (rowOf t p) := by
  rw [← Equiv.sum_comp rowsEquiv g, Fintype.sum_prod_type]
  rfl

/-- The place in the array of entry `y` of block `t`. -/
abbrev inBlock (t : Fin 8) (y : (⟨2, ![2048, 256]⟩ : Shape).Idx) : (⟨2, ![16384, 256]⟩ : Shape).Idx :=
  ix2 (rowOf t (y 0)) (y 1)

/-- THE LAW: the total of all entries is the sum of the eight block totals. -/
theorem sum_blocks {M : Type*} [AddCommMonoid M] (f : (⟨2, ![16384, 256]⟩ : Shape).Idx → M) :
    ∑ i, f i = ∑ t : Fin 8, ∑ y : (⟨2, ![2048, 256]⟩ : Shape).Idx, f (inBlock t y) := by
  rw [sum_idx2, sum_rows]
  refine Finset.sum_congr rfl fun t _ => ?_
  rw [sum_idx2]

/-- The total accumulated block after block: from zero the first block's total is added, then each next one. -/
def running {M : Type*} [AddCommMonoid M] (S : ℕ → M) : ℕ → M
  | 0 => 0 + S 0
  | n + 1 => running S n + S (n + 1)

/-- After block `n` the accumulated total is the sum of the totals of blocks `0 … n`. -/
theorem running_eq {M : Type*} [AddCommMonoid M] (S : ℕ → M) (n : ℕ) :
    running S n = ∑ t ∈ Finset.range (n + 1), S t := by
  induction n with
  | zero => simp [running]
  | succ n ih =>
    rw [Finset.sum_range_succ _ (n + 1), ← ih]
    rfl

/-- After the last of the eight blocks it is the sum over all eight. -/
theorem running_seven {M : Type*} [AddCommMonoid M] (S : ℕ → M) :
    running S 7 = ∑ t : Fin 8, S t.val := by
  rw [running_eq, Finset.sum_range]

end Cert.SumBlocks
-- ==== Proof.LibReshapeSum.lean ====
/-
  Reshapes and sums. A reshape lists the same entries under new indices: the row-major position of an entry is
  kept, so the correspondence between old and new indices is a bijection. Hence the sum of all entries of a
  reshaped array is the sum of all entries of the array, in any commutative monoid (no finiteness is used), and
  a reshape commutes with adding one fixed value to every entry.
-/
import Idealize.ShloMosaic.Lib.Pipeline.Value

noncomputable section

namespace Cert.Lib

open Idealize.ShloMosaic

/-- The entries of a reshaped array are the entries of the array, each exactly once: summed over all indices they
    give the same total. -/
theorem sum_shapeCast {s t : Shape} {M : Type} [AddCommMonoid M] (x : s.Idx → M) (h : s.ShapeCasts t) :
    ∑ j : t.Idx, shapeCast t x h j = ∑ k : s.Idx, x k :=
  Equiv.sum_comp (Shape.reshapeEquiv h) x

/-- Adding one fixed value to every entry and then reshaping is reshaping and then adding it. -/
theorem shapeCast_add_const {s t : Shape} {M : Type} [Add M] (x : s.Idx → M) (c : M) (h : s.ShapeCasts t) :
    shapeCast t (fun j => x j + c) h = fun i => shapeCast t x h i + c := rfl

end Cert.Lib

end
-- ==== Proof.Loss.lean ====
/-
  The accumulated total, read on the extended reals.

  One step of the accumulator adds to what it holds the total, over a 2048 × 256 block, of the squares of the block's
  differences: the body reshapes the block of squares to 1 × 2048 × 256 and sums it over its two long axes, and a
  reshape keeps the total of all entries. From zero, after the eighth block the accumulator therefore holds the sum of
  the eight block totals, and since every row of the 16384 × 256 array lies in exactly one block that is the total of
  the squares of ALL the differences. Addition on the extended reals is commutative and associative everywhere, so no
  finiteness of the entries is used.
-/
import proofs.«158127_j50319836840009_1_alg».proof.Proof.Diff
import proofs.«158127_j50319836840009_1_alg».proof.Proof.SumBlocks
import proofs.«158127_j50319836840009_1_alg».proof.Proof.LibReshapeSum
import Idealize.ShloMosaic.PureOps.Ideal.Laws
import Idealize.ShloMosaic.Lib.ValueIdx

set_option maxRecDepth 16384

noncomputable section

namespace Cert.KernelIdeal.Loss

open Cert.KernelIdeal Cert.KernelIdeal.Gen
open Idealize.ShloMosaic Idealize.ShloMosaic.TcCoe Idealize.SL.Sem
open Cert.SumBlocks (inBlock rowOf)

/-- The one-entry shape has one index. -/
instance oneIdx : Subsingleton S1.Idx := ⟨fun a b => funext fun d => by
  match d with
  | ⟨0, h0⟩ =>
    apply Fin.ext
    have ha : (a ⟨0, h0⟩).val < 1 := (a ⟨0, h0⟩).isLt
    have hb : (b ⟨0, h0⟩).val < 1 := (b ⟨0, h0⟩).isLt
    omega⟩

/-- A one-entry vector, reshaped to 1 × 1 × 1, read at its one position and spread over 1 × 1, is its entry. -/
theorem one_entry {α : Type} (v : S1.Idx → α) (j : S1x1.Idx) :
    broadcast S1x1 (extractAt ![0, 0, 0] (shapeCast S1x1x1 v shapeCasts_S1_S1x1x1) inpos_S1x1x1_p0_0_0) j
      = v (ValueIdx.ix1 0) := by
  unfold broadcast extractAt shapeCast
  exact congrArg v (Subsingleton.elim _ _)

/-- A block's squares, reshaped to 1 × 2048 × 256 and summed over the two long axes: the total of the squares (a
    reshape keeps the total of all entries). -/
theorem squares_total (p : FVec Ideal S2048x256 .f32) (j : S1.Idx) :
    multiReduction (F := Ideal) .add [1, 2] S1 (shapeCast S1x2048x256 (mulf p p) shapeCasts_S2048x256_S1x2048x256)
      0x00000000#32 reduces_S1x2048x256_S1 (.inl rfl) rfl j = ∑ y : S2048x256.Idx, p y * p y := by
  have ht : ∀ b, S1.size b = 1 := fun b => by fin_cases b; rfl
  have h1 := Ideal.multiReduction_add_total (φ := .f32) (shapeCast S1x2048x256 (mulf p p) shapeCasts_S2048x256_S1x2048x256)
      0x00000000#32 reduces_S1x2048x256_S1 ht (.inl rfl) rfl j
  have h2 := Cert.Lib.sum_shapeCast (mulf p p) shapeCasts_S2048x256_S1x2048x256
  exact h1.trans h2

/-- ONE STEP of the accumulator: what it holds, plus the block's total of squared differences. -/
theorem step_apply (x0 x1 : FVec Ideal S2048x256 .f32) (acc : FVec Ideal S1x1 .f32) (j : S1x1.Idx) :
    k0_pay3 (F := Ideal) x0 x1 acc j
      = acc j + ∑ y : S2048x256.Idx, k0_pay2 (F := Ideal) x0 x1 y * k0_pay2 (F := Ideal) x0 x1 y := by
  unfold k0_pay3
  dsimp only
  rw [shapeCast_self]
  show acc j + broadcast S1x1 (extractAt ![0, 0, 0] (shapeCast S1x1x1 (multiReduction (F := Ideal) .add [1, 2] S1
      (shapeCast S1x2048x256 (mulf (k0_pay2 (F := Ideal) x0 x1) (k0_pay2 (F := Ideal) x0 x1)) shapeCasts_S2048x256_S1x2048x256)
      0x00000000#32 reduces_S1x2048x256_S1 (.inl rfl) rfl) shapeCasts_S1_S1x1x1) inpos_S1x1x1_p0_0_0) j = _
  rw [one_entry, squares_total]

variable (V : (c : Dev nD) → (b : Ref sig .tc) → Buf (Elt Ideal) ((c : Thread nD τ).loc b))

/-- The total of squared differences over block `t` (zero past the eighth block, where there is none). -/
def blockTotal (c : Dev nD) (t : ℕ) : EReal :=
  if h : t < cfg0.N then
    ∑ y : S2048x256.Idx, k0_pay2 (F := Ideal) (iblk0 V c 0 ⟨t, h⟩) (iblk0 V c 1 ⟨t, h⟩) y
      * k0_pay2 (F := Ideal) (iblk0 V c 0 ⟨t, h⟩) (iblk0 V c 1 ⟨t, h⟩) y
  else 0

theorem blockTotal_of_lt (c : Dev nD) (t : ℕ) (h : t < cfg0.N) :
    blockTotal V c t = ∑ y : S2048x256.Idx, k0_pay2 (F := Ideal) (iblk0 V c 0 ⟨t, h⟩) (iblk0 V c 1 ⟨t, h⟩) y
      * k0_pay2 (F := Ideal) (iblk0 V c 0 ⟨t, h⟩) (iblk0 V c 1 ⟨t, h⟩) y := dif_pos h

/-- After block `n` the accumulator holds the block totals added one after another from zero. -/
theorem totals_apply (c : Dev nD) : ∀ (n : ℕ) (h : n < cfg0.N) (j : S1x1.Idx),
    Diff.totals V c n h j = Cert.SumBlocks.running (blockTotal V c) n
  | 0, h, j => by
    show k0_pay3 (F := Ideal) _ _ (k0_pay1 (F := Ideal)) j = (0 : EReal) + blockTotal V c 0
    rw [step_apply, blockTotal_of_lt V c 0 h]
    refine congrArg (fun z : EReal => z + _) ?_
    show Ideal.ofBits .f32 0x00000000#32 = 0
    exact Ideal.ofBits_zero_f32
  | n + 1, h, j => by
    show k0_pay3 (F := Ideal) _ _ (Diff.totals V c n _) j = Cert.SumBlocks.running (blockTotal V c) n + blockTotal V c (n + 1)
    rw [step_apply, totals_apply c n, blockTotal_of_lt V c (n + 1) h]

/-- The index maps of the two inputs, decided once over the eight blocks. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry `y` of block `t` of the gathered centre rows is the array's entry at row `2048 t + y₀`. -/
theorem centre_block (c : Dev nD) (t : Fin 8) (ht : t.val < cfg0.N) (y : S2048x256.Idx) :
    (iblk0 V c 0 ⟨t.val, ht⟩ : FVec Ideal S2048x256 .f32) y = V c main_v6 (inBlock t y) := by
  obtain ⟨e0, e1, -, -⟩ := idx_in ⟨t.val, ht⟩
  unfold iblk0
  rw [View.read_apply]
  show V c main_v6 _ = V c main_v6 _
  refine congrArg (V c main_v6) ?_
  funext a
  apply Fin.ext
  match a with
  | ⟨0, _⟩ => show win0_0.index ⟨t.val, ht⟩ (0 : Fin 2) * 2048 + 1 * (y 0).val = 2048 * t.val + (y 0).val; rw [e0]; dsimp only; omega
  | ⟨1, _⟩ => show win0_0.index ⟨t.val, ht⟩ (1 : Fin 2) * 256 + 1 * (y 1).val = (y 1).val; rw [e1]; omega

/-- The same of the inputs. -/
theorem input_block (c : Dev nD) (t : Fin 8) (ht : t.val < cfg0.N) (y : S2048x256.Idx) :
    (iblk0 V c 1 ⟨t.val, ht⟩ : FVec Ideal S2048x256 .f32) y = V c main_arg0 (inBlock t y) := by
  obtain ⟨-, -, e2, e3⟩ := idx_in ⟨t.val, ht⟩
  unfold iblk0
  rw [View.read_apply]
  show V c main_arg0 _ = V c main_arg0 _
  refine congrArg (V c main_arg0) ?_
  funext a
  apply Fin.ext
  match a with
  | ⟨0, _⟩ => show win0_1.index ⟨t.val, ht⟩ (0 : Fin 2) * 2048 + 1 * (y 0).val = 2048 * t.val + (y 0).val; rw [e2]; dsimp only; omega
  | ⟨1, _⟩ => show win0_1.index ⟨t.val, ht⟩ (1 : Fin 2) * 256 + 1 * (y 1).val = (y 1).val; rw [e3]; omega

/-- The block totals added one after another through the eighth block: the total of the squares of ALL the differences. -/
theorem running_total (c : Dev nD) :
    Cert.SumBlocks.running (blockTotal V c) 7
      = ∑ i : S16384x256.Idx, (Diff.diffAll V c i : EReal) * Diff.diffAll V c i := by
  have hN : cfg0.N = 8 := N_0
  rw [Cert.SumBlocks.running_seven, Cert.SumBlocks.sum_blocks]
  refine Finset.sum_congr rfl fun t _ => ?_
  have ht : t.val < cfg0.N := by rw [hN]; exact t.isLt
  rw [blockTotal_of_lt V c t.val ht]
  refine Finset.sum_congr rfl fun y _ => ?_
  rw [Diff.diff_apply]
  have e0 := centre_block V c t ht y
  have e1 := input_block V c t ht y
  have h : FloatOps.subf (F := Ideal) (φ := .f32) ((iblk0 V c 0 ⟨t.val, ht⟩ : FVec Ideal S2048x256 .f32) y)
      ((iblk0 V c 1 ⟨t.val, ht⟩ : FVec Ideal S2048x256 .f32) y) = Diff.diffAll V c (inBlock t y) := by
    rw [e0, e1]
    all_goals rfl
  exact congrArg₂ (fun a b : EReal => a * b) h h

/-- THE TOTAL: after the last block the accumulator holds the total of the squares of all the differences. -/
theorem total_apply (c : Dev nD) (j : S1x1.Idx) :
    Diff.total V c j = ∑ i : S16384x256.Idx, (Diff.diffAll V c i : EReal) * Diff.diffAll V c i :=
  (totals_apply V c 7 (by rw [show cfg0.N = 8 from N_0]; decide) j).trans (running_total V c)

end Cert.KernelIdeal.Loss

end
-- ==== Proof.Bridge.lean ====
/-
  The two programs compute the same two results.

  THE LOSS. The reference sums the squares of all 16384 × 256 differences at once, from zero, then halves the sum and
  divides by the number of samples. The kernel accumulates the same squares block after block from zero (which is their
  total: the accumulated-total module), and the host then applies the same two divisions. The differences themselves are
  the same on both sides: the same gather of the same normalised labels, minus the inputs.

  THE TABLE. Both sides end with `centres − rate · gradient`, entry by entry, the gradient being the same scatter-add of
  the same differences at the same rows into a zero table. The reference broadcasts the one-entry rate to the table's
  shape; the kernel reads the rate at the one index of its 1 × 1 reshape: the same number.
-/
import proofs.«158127_j50319836840009_1_alg».proof.Defs
import proofs.«158127_j50319836840009_1_alg».proof.Proof.Gen.Kernel.Frame
import proofs.«158127_j50319836840009_1_alg».proof.Proof.Gen.Pre_finite_inputs
import proofs.«158127_j50319836840009_1_alg».proof.Proof.Gen.ReferenceIdeal.Run
import proofs.«158127_j50319836840009_1_alg».proof.Proof.Whole
import proofs.«158127_j50319836840009_1_alg».proof.Proof.Fold
import proofs.«158127_j50319836840009_1_alg».proof.Proof.Loss
import Idealize.ShloMosaic.PureOps.Ideal.Laws
import Idealize.ShloMosaic.Lib.ValueIdx

set_option maxRecDepth 16384

noncomputable section

namespace Cert.Proof.Bridge

open Idealize.ShloMosaic Idealize.ShloMosaic.TcCoe Idealize.SL.Sem
open Cert.KernelIdeal Cert.KernelIdeal.Gen

/-! ## The kernel's run, with its two results as functions of the launch contents -/

/-- The kernel's loss. -/
abbrev lossK (m : (ℓ : Loc nD τ sig) → Buf (Elt Ideal) ℓ) (ρ : Dev nD → PrngReg) (c : Dev nD) :
    Buf (Elt Ideal) ((c.tc : Thread nD τ).loc main_v10) :=
  Fold.lossOf (F := Ideal) (Diff.total (V1 m ρ) c)

/-- The kernel's updated table. -/
abbrev tableK (m : (ℓ : Loc nD τ sig) → Buf (Elt Ideal) ℓ) (c : Dev nD) :
    Buf (Elt Ideal) ((c.tc : Thread nD τ).loc main_v20) :=
  Update.updated (F := Ideal) (m ((c : Thread nD τ).loc main_arg2))
    (Fold.scattered (m ((c : Thread nD τ).loc main_arg1)) (Fold.diffs m c))
    (shapeCast S1x1 (m ((c : Thread nD τ).loc main_arg3)) shapeCasts_S1_S1x1)

theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v10) = lossK m ρ c
      ∧ r.2.mem ((c.tc : Thread nD τ).loc main_v20) = tableK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c).1.trans (Fold.loss_eq m ρ c), (h c).2.1.trans (Fold.table_eq m ρ c), (h c).2.2⟩)
    (Cert.KernelIdeal.Whole.run m ρ)

/-! ## The loss -/

/-- The sum of all squares taken at once from zero, halved and divided, is the same two divisions of a 1 × 1 total that
    holds the sum of all squares. -/
theorem loss_bridge (D : FVec Ideal S16384x256 .f32) (T : FVec Ideal S1x1 .f32)
    (hT : ∀ j, T j = ∑ i : S16384x256.Idx, D i * D i)
    (hr : S16384x256.ReducesTo [0, 1] S_) (hS : 0 < S_.numel) :
    Host.divf (F := Ideal) (Host.divf (F := Ideal)
        (Host.reduceAdd (F := Ideal) (mulf D D) (constant (F := Ideal) S_ .f32 0x00000000#32) hr hS)
        (constant (F := Ideal) S_ .f32 0x40000000#32)) (constant (F := Ideal) S_ .f32 0x46800000#32)
      = Fold.lossOf (F := Ideal) T := by
  refine congrArg (fun z : FVec Ideal S_ .f32 => Host.divf (F := Ideal) (Host.divf (F := Ideal) z
    (constant (F := Ideal) S_ .f32 0x40000000#32)) (constant (F := Ideal) S_ .f32 0x46800000#32)) ?_
  funext j
  show Ideal.hostReduceAdd hr (mulf D D) (Ideal.ofBits .f32 0x00000000#32) j = T _
  rw [Ideal.hostReduceAdd_total hr (fun b => b.elim0), hT, Ideal.ofBits_zero_f32, zero_add]
  rfl

/-! ## The table -/

/-- The one-entry rate broadcast to the table's shape is, at every index, the rate read at the one index of its 1 × 1
    reshape. -/
theorem rate_eq {F : FTy → Type} [FloatOps F] (a3 : FVec F S1 .f32) (i : S100000x256.Idx)
    (hb1 : S1.BroadcastsInDim S1x1 (![1] : Fin 1 → Fin S1x1.rank))
    (hb2 : S1x1.BroadcastsInDim S100000x256 (![0, 1] : Fin 2 → Fin S100000x256.rank)) (hs : S1.ShapeCasts S1x1) :
    broadcastInDim S100000x256 ![0, 1] hb2 (broadcastInDim S1x1 ![1] hb1 a3) i
      = shapeCast S1x1 a3 hs (ValueIdx.ix2 0 0) := by
  unfold broadcastInDim shapeCast
  exact congrArg a3 (Subsingleton.elim _ _)

/-- `centres − broadcast rate · gradient` is the kernel's table, entry by entry. -/
theorem table_bridge {F : FTy → Type} [FloatOps F] (a2 G : FVec F S100000x256 .f32) (a3 : FVec F S1 .f32)
    (hb1 : S1.BroadcastsInDim S1x1 (![1] : Fin 1 → Fin S1x1.rank))
    (hb2 : S1x1.BroadcastsInDim S100000x256 (![0, 1] : Fin 2 → Fin S100000x256.rank)) (hs : S1.ShapeCasts S1x1) :
    subf a2 (mulf (broadcastInDim S100000x256 ![0, 1] hb2 (broadcastInDim S1x1 ![1] hb1 a3)) G)
      = Update.updated a2 G (shapeCast S1x1 a3 hs) := by
  funext i
  show FloatOps.subf (a2 i) (FloatOps.mulf (broadcastInDim S100000x256 ![0, 1] hb2 (broadcastInDim S1x1 ![1] hb1 a3) i) (G i))
    = FloatOps.subf (a2 i) (FloatOps.mulf (shapeCast S1x1 a3 hs (ValueIdx.ix2 0 0)) (G i))
  rw [rate_eq a3 i hb1 hb2 hs]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the four arguments the two programs end with equal losses and equal tables. -/
theorem algebraic : Cert.algebraic_KernelIdeal_ReferenceIdeal := by
  intro m ρ m' ρ' _ hagree
  refine ⟨fun c => lossK m ρ c, fun c => tableK m c, kernel_run m ρ, ?_⟩
  refine (θ_run Cert.ReferenceIdeal.defs _ _).mono (fun _ h c => ?_) (Cert.ReferenceIdeal.Value.run (F := Ideal) m' ρ')
  obtain ⟨h0, h1, h2, h3⟩ := hagree c
  refine ⟨(h c).1.trans ?_, (h c).2.1.trans ?_, (h c).2.2⟩
  · rw [h0, h1, h2]
    exact loss_bridge (Fold.diffs m c) (Diff.total (V1 m ρ) c)
      (fun j => (Loss.total_apply (V1 m ρ) c j).trans (by rw [Fold.diffAll_eq])) _ _
  · rw [h0, h1, h2, h3]
    exact table_bridge _ _ _ _ _ _

end Cert.Proof.Bridge

end
-- ==== Proof.lean ====
/-
  The certificate of the centre-loss step: a gather of the labelled centre rows, the differences to the inputs, the loss
  (the total of the squared differences, halved, per sample) and the updated table (centres minus rate times the
  scatter-added differences).

  The kernel computes the differences and their total of squares in a first tiled pass (eight row blocks, the total
  accumulated block after block) and the table update in a second (twenty row blocks); the reference computes both with
  whole-array operations. On the extended reals the two agree: the accumulated total is the whole sum by commutativity
  and associativity of addition alone, and everything else is the same operation on the same operands. The three frames
  are the generated frame proofs (the reference's: its generated run with the results dropped); the idealisation rewrote
  nothing, so there is nothing to preserve.
-/
import proofs.«158127_j50319836840009_1_alg».proof.Defs
import proofs.«158127_j50319836840009_1_alg».proof.Proof.Gen.Kernel
import proofs.«158127_j50319836840009_1_alg».proof.Proof.Gen.Kernel.Skeleton
import proofs.«158127_j50319836840009_1_alg».proof.Proof.Gen.Kernel.Launch
import proofs.«158127_j50319836840009_1_alg».proof.Proof.Gen.Kernel.Points
import proofs.«158127_j50319836840009_1_alg».proof.Proof.Gen.Kernel.Frame
import proofs.«158127_j50319836840009_1_alg».proof.Proof.Gen.KernelIdeal
import proofs.«158127_j50319836840009_1_alg».proof.Proof.Gen.KernelIdeal.Skeleton
import proofs.«158127_j50319836840009_1_alg».proof.Proof.Gen.KernelIdeal.Launch
import proofs.«158127_j50319836840009_1_alg».proof.Proof.Gen.KernelIdeal.Points
import proofs.«158127_j50319836840009_1_alg».proof.Proof.Gen.KernelIdeal.Frame
import proofs.«158127_j50319836840009_1_alg».proof.Proof.Gen.ReferenceIdeal
import proofs.«158127_j50319836840009_1_alg».proof.Proof.Gen.ReferenceIdeal.Run
import proofs.«158127_j50319836840009_1_alg».proof.Proof.Gen.Pre_finite_inputs
import proofs.«158127_j50319836840009_1_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Bridge.frame_k, Bridge.frame_ki, Bridge.frame_ri, trivial, Bridge.algebraic⟩

end Cert.Proof

end
